-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x2048 : Shape := ⟨3, ![4096, 1, 2048]⟩
abbrev S_ : Shape := ⟨0, ![]⟩

class Facts : Prop where
  bcast_S_S4096x1x2048 : S_.BroadcastsInDim S4096x1x2048 (![] : Fin 0 → Fin S4096x1x2048.rank)
  reducesTo_S4096x1x2048_S_d0_1_2 : S4096x1x2048.ReducesTo [0, 1, 2] S_
  h_S_ : 0 < S_.numel

variable [Facts]

def fn_part1 {F : FTy → Type} [FloatOps F] (main_arg4 : FVec F S4096x1x2048 .f32) (main_arg5 : FVec F S4096x1x2048 .f32) (main_v13 : IVec S_ 1) (main_v16 : IVec S4096x1x2048 1) : IVec S_ 1 :=
  let main_c_5 : IVec S_ 1 := constantI S_ 1 1#1
  let main_v17 : IVec S_ 1 := (fun x v => Host.reduce IntOp.andi x v reducesTo_S4096x1x2048_S_d0_1_2 h_S_) main_v16 main_c_5
  let main_v18 : IVec S_ 1 := andi main_v13 main_v17
  let main_v19 : FVec F S4096x1x2048 .f32 := Host.absf main_arg4
  let main_cst_6 : FVec F S_ .f32 := constant S_ .f32 0x7F800000#32
  let main_v20 : FVec F S4096x1x2048 .f32 := broadcastInDim S4096x1x2048 ![] bcast_S_S4096x1x2048 main_cst_6
  let main_v21 : IVec S4096x1x2048 1 := cmpf .olt main_v19 main_v20
  let main_c_7 : IVec S_ 1 := constantI S_ 1 1#1
  let main_v22 : IVec S_ 1 := (fun x v => Host.reduce IntOp.andi x v reducesTo_S4096x1x2048_S_d0_1_2 h_S_) main_v21 main_c_7
  let main_v23 : IVec S_ 1 := andi main_v18 main_v22
  let main_v24 : FVec F S4096x1x2048 .f32 := Host.absf main_arg5
  let main_cst_8 : FVec F S_ .f32 := constant S_ .f32 0x7F800000#32
  let main_v25 : FVec F S4096x1x2048 .f32 := broadcastInDim S4096x1x2048 ![] bcast_S_S4096x1x2048 main_cst_8
  let main_v26 : IVec S4096x1x2048 1 := cmpf .olt main_v24 main_v25
  let main_c_9 : IVec S_ 1 := constantI S_ 1 1#1
  let main_v27 : IVec S_ 1 := (fun x v => Host.reduce IntOp.andi x v reducesTo_S4096x1x2048_S_d0_1_2 h_S_) main_v26 main_c_9
  let main_v28 : IVec S_ 1 := andi main_v23 main_v27
  main_v28

def fn {F : FTy → Type} [FloatOps F] (main_arg0 : FVec F S4096x1x2048 .f32) (main_arg1 : FVec F S4096x1x2048 .f32) (main_arg2 : FVec F S4096x1x2048 .f32) (main_arg3 : FVec F S4096x1x2048 .f32) (main_arg4 : FVec F S4096x1x2048 .f32) (main_arg5 : FVec F S4096x1x2048 .f32) : IVec S_ 1 :=
  let main_v0 : FVec F S4096x1x2048 .f32 := Host.absf main_arg0
  let main_cst : FVec F S_ .f32 := constant S_ .f32 0x7F800000#32
  let main_v1 : FVec F S4096x1x2048 .f32 := broadcastInDim S4096x1x2048 ![] bcast_S_S4096x1x2048 main_cst
  let main_v2 : IVec S4096x1x2048 1 := cmpf .olt main_v0 main_v1
  let main_c : IVec S_ 1 := constantI S_ 1 1#1
  let main_v3 : IVec S_ 1 := (fun x v => Host.reduce IntOp.andi x v reducesTo_S4096x1x2048_S_d0_1_2 h_S_) main_v2 main_c
  let main_v4 : FVec F S4096x1x2048 .f32 := Host.absf main_arg1
  let main_cst_0 : FVec F S_ .f32 := constant S_ .f32 0x7F800000#32
  let main_v5 : FVec F S4096x1x2048 .f32 := broadcastInDim S4096x1x2048 ![] bcast_S_S4096x1x2048 main_cst_0
  let main_v6 : IVec S4096x1x2048 1 := cmpf .olt main_v4 main_v5
  let main_c_1 : IVec S_ 1 := constantI S_ 1 1#1
  let main_v7 : IVec S_ 1 := (fun x v => Host.reduce IntOp.andi x v reducesTo_S4096x1x2048_S_d0_1_2 h_S_) main_v6 main_c_1
  let main_v8 : IVec S_ 1 := andi main_v3 main_v7
  let main_v9 : FVec F S4096x1x2048 .f32 := Host.absf main_arg2
  let main_cst_2 : FVec F S_ .f32 := constant S_ .f32 0x7F800000#32
  let main_v10 : FVec F S4096x1x2048 .f32 := broadcastInDim S4096x1x2048 ![] bcast_S_S4096x1x2048 main_cst_2
  let main_v11 : IVec S4096x1x2048 1 := cmpf .olt main_v9 main_v10
  let main_c_3 : IVec S_ 1 := constantI S_ 1 1#1
  let main_v12 : IVec S_ 1 := (fun x v => Host.reduce IntOp.andi x v reducesTo_S4096x1x2048_S_d0_1_2 h_S_) main_v11 main_c_3
  let main_v13 : IVec S_ 1 := andi main_v8 main_v12
  let main_v14 : FVec F S4096x1x2048 .f32 := Host.absf main_arg3
  let main_cst_4 : FVec F S_ .f32 := constant S_ .f32 0x7F800000#32
  let main_v15 : FVec F S4096x1x2048 .f32 := broadcastInDim S4096x1x2048 ![] bcast_S_S4096x1x2048 main_cst_4
  let main_v16 : IVec S4096x1x2048 1 := cmpf .olt main_v14 main_v15
  fn_part1 (F := F) main_arg4 main_arg5 main_v13 main_v16
-- ==== Kernel.lean ====
abbrev S4096x1x2048 : Shape := ⟨3, ![4096, 1, 2048]⟩
abbrev S1x1 : Shape := ⟨2, ![1, 1]⟩
abbrev S256x1x2048 : Shape := ⟨3, ![256, 1, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 8
  | .vmem => 14
  | .smem => 0
  | _ => 0

abbrev bufTy : (tb : Table) → Fin (tcTables nBuf tb) → BufTy
  | .hbm, ⟨0, _⟩ => ⟨S4096x1x2048, .f32⟩
  | .hbm, ⟨1, _⟩ => ⟨S4096x1x2048, .f32⟩
  | .hbm, ⟨2, _⟩ => ⟨S4096x1x2048, .f32⟩
  | .hbm, ⟨3, _⟩ => ⟨S4096x1x2048, .f32⟩
  | .hbm, ⟨4, _⟩ => ⟨S4096x1x2048, .f32⟩
  | .hbm, ⟨5, _⟩ => ⟨S4096x1x2048, .f32⟩
  | .hbm, ⟨6, _⟩ => ⟨S1x1, .f32⟩
  | .hbm, ⟨7, _⟩ => ⟨S_, .f32⟩
  | .local _ .vmem, ⟨0, _⟩ => ⟨S256x1x2048, .f32⟩
  | .local _ .vmem, ⟨1, _⟩ => ⟨S256x1x2048, .f32⟩
  | .local _ .vmem, ⟨2, _⟩ => ⟨S256x1x2048, .f32⟩
  | .local _ .vmem, ⟨3, _⟩ => ⟨S256x1x2048, .f32⟩
  | .local _ .vmem, ⟨4, _⟩ => ⟨S256x1x2048, .f32⟩
  | .local _ .vmem, ⟨5, _⟩ => ⟨S256x1x2048, .f32⟩
  | .local _ .vmem, ⟨6, _⟩ => ⟨S256x1x2048, .f32⟩
  | .local _ .vmem, ⟨7, _⟩ => ⟨S256x1x2048, .f32⟩
  | .local _ .vmem, ⟨8, _⟩ => ⟨S256x1x2048, .f32⟩
  | .local _ .vmem, ⟨9, _⟩ => ⟨S256x1x2048, .f32⟩
  | .local _ .vmem, ⟨10, _⟩ => ⟨S256x1x2048, .f32⟩
  | .local _ .vmem, ⟨11, _⟩ => ⟨S256x1x2048, .f32⟩
  | .local _ .vmem, ⟨12, _⟩ => ⟨S1x1, .f32⟩
  | .local _ .vmem, ⟨13, _⟩ => ⟨S1x1, .f32⟩
  | _, _ => ⟨S4096x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_37 : BitVec 32 := 0#32
  let v71 : BitVec 1 := Scalar.cmpi .ne v70 c0_i32_37
  v71

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x1x2048_S256x1x2048_0_0_0 : ∀ a, (![0, 0, 0] : Fin 3 → Nat) a + S256x1x2048.size a ≤ S256x1x2048.size a
  h_S256x1x2048 : 0 < S256x1x2048.numel
  shapeCasts_S256x1x2048_S256x2048 : S256x1x2048.ShapeCasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x2048.size a ≤ S4096x1x2048.size a
  hwx0_0 : ∀ i : grid0.Coords, EltTy.bits .f32 = 32 ∨ (Rect.block (s := S4096x1x2048) S256x1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1x2048.size a ≤ S4096x1x2048.size a
  hwx0_1 : ∀ i : grid0.Coords, EltTy.bits .f32 = 32 ∨ (Rect.block (s := S4096x1x2048) S256x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1x2048.size a ≤ S4096x1x2048.size a
  hwx0_2 : ∀ i : grid0.Coords, EltTy.bits .f32 = 32 ∨ (Rect.block (s := S4096x1x2048) S256x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1x2048.size a ≤ S4096x1x2048.size a
  hwx0_3 : ∀ i : grid0.Coords, EltTy.bits .f32 = 32 ∨ (Rect.block (s := S4096x1x2048) S256x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1x2048.size a ≤ S4096x1x2048.size a
  hwx0_4 : ∀ i : grid0.Coords, EltTy.bits .f32 = 32 ∨ (Rect.block (s := S4096x1x2048) S256x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1x2048.size a ≤ S4096x1x2048.size a
  hwx0_5 : ∀ i : grid0.Coords, EltTy.bits .f32 = 32 ∨ (Rect.block (s := S4096x1x2048) S256x1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S256x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1x2048 : Shape := ⟨3, ![4096, 1, 2048]⟩
abbrev S_ : Shape := ⟨0, ![]⟩
abbrev S4096 : Shape := ⟨1, ![4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1x2048, .f32⟩
  | .hbm, ⟨1, _⟩ => ⟨S4096x1x2048, .f32⟩
  | .hbm, ⟨2, _⟩ => ⟨S4096x1x2048, .f32⟩
  | .hbm, ⟨3, _⟩ => ⟨S4096x1x2048, .f32⟩
  | .hbm, ⟨4, _⟩ => ⟨S4096x1x2048, .f32⟩
  | .hbm, ⟨5, _⟩ => ⟨S4096x1x2048, .f32⟩
  | .hbm, ⟨6, _⟩ => ⟨S4096x1x2048, .f32⟩
  | .hbm, ⟨7, _⟩ => ⟨S4096x1x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1x2048, .f32⟩
  | .hbm, ⟨24, _⟩ => ⟨S4096x1x2048, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096x1x2048, .f32⟩
  | .hbm, ⟨42, _⟩ => ⟨S4096x1x2048, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4096x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_13 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_14 : Ref sig .tc := ⟨.hbm, 59, rfl⟩
abbrev main_v38 : Ref sig .tc := ⟨.hbm, 60, rfl⟩
abbrev main_cst_15 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  reducesTo_S4096x1x2048_S4096_d1_2 : S4096x1x2048.ReducesTo [1, 2] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Spec.lean ====
/-
  The weighted normalised-RMSE loss as ONE function of the six argument arrays, over the extended reals.

  Each array is [4096, 1, 2048]: 4096 samples (rows), one channel, 2048 positions. For a prediction `o` and a target
  `t`, row `b`'s term is

      nrmse o t b = sqrt ((∑ₖ (o b k - t b k)²) / 2048) / (maxₖ t b k - minₖ t b k),

  the maximum folded from -∞ and the minimum from +∞; a row's loss is `½·nrmse₁ + ¼·nrmse₂ + ¼·nrmse₃`; the result is
  the rows' losses summed from zero and divided by 4096. The divisions are the extended reals' total division, so the
  function is defined at every input (a constant target row, whose range is zero, included). The float literals stay
  the words the two programs write; only the zero word is ever evaluated.

  A row's term reads that row only, so the definitions are stated for an array of any number `n` of rows: the same
  function at `n = 256` reads a block of 256 consecutive rows, and agrees with the whole array's at the row the block's
  row comes from (`nrmse_congr`).
-/
import Idealize.ShloMosaic.PureOps.Ideal
import Idealize.ShloMosaic.Lib.ValueIdx

noncomputable section

namespace Cert.Loss

open Idealize.ShloMosaic Idealize.ShloMosaic.ValueIdx

/-- An [n, 1, 2048] array of extended reals. -/
abbrev Arr (n : ℕ) : Type := (⟨3, ![n, 1, 2048]⟩ : Shape).Idx → EReal

variable {n n' : ℕ}

/-- Row `b`'s sum of squared differences over the 2048 positions. -/
def sumSq (o t : Arr n) (b : Fin n) : EReal :=
  ∑ k : Fin 2048, (o (ix3 b 0 k) - t (ix3 b 0 k)) * (o (ix3 b 0 k) - t (ix3 b 0 k))

/-- Row `b`'s largest target entry, folded from -∞. -/
def rowMax (t : Arr n) (b : Fin n) : EReal :=
  (Finset.univ : Finset (Fin 2048)).fold max (Ideal.ofBits .f32 0xFF800000#32) fun k => t (ix3 b 0 k)

/-- Row `b`'s smallest target entry, folded from +∞. -/
def rowMin (t : Arr n) (b : Fin n) : EReal :=
  (Finset.univ : Finset (Fin 2048)).fold min (Ideal.ofBits .f32 0x7F800000#32) fun k => t (ix3 b 0 k)

/-- Row `b`'s root-mean-square error divided by the target's range. -/
def nrmse (o t : Arr n) (b : Fin n) : EReal :=
  Ideal.div (Ideal.sqrt (Ideal.div (sumSq o t b) (Ideal.ofBits .f32 0x45000000#32))) (rowMax t b - rowMin t b)

/-- Row `b`'s loss: the three terms weighted ½, ¼, ¼. -/
def rowLoss (o1 t1 o2 t2 o3 t3 : Arr n) (b : Fin n) : EReal :=
  Ideal.ofBits .f32 0x3F000000#32 * nrmse o1 t1 b + Ideal.ofBits .f32 0x3E800000#32 * nrmse o2 t2 b
    + Ideal.ofBits .f32 0x3E800000#32 * nrmse o3 t3 b

/-- The loss: the 4096 rows' losses summed from zero, divided by 4096. -/
def total (o1 t1 o2 t2 o3 t3 : Arr 4096) : EReal :=
  Ideal.div (Ideal.ofBits .f32 0x00000000#32 + ∑ b : Fin 4096, rowLoss o1 t1 o2 t2 o3 t3 b)
    (Ideal.ofBits .f32 0x45800000#32)

/-- A row's term depends on that row's entries only: two arrays (of any heights) whose rows `r` and `b` agree
    position by position have the same term there. -/
theorem nrmse_congr (o t : Arr n) (o' t' : Arr n') (r : Fin n) (b : Fin n')
    (ho : ∀ k, o (ix3 r 0 k) = o' (ix3 b 0 k)) (ht : ∀ k, t (ix3 r 0 k) = t' (ix3 b 0 k)) :
    nrmse o t r = nrmse o' t' b := by
  have e1 : sumSq o t r = sumSq o' t' b := Finset.sum_congr rfl fun k _ => by rw [ho k, ht k]
  have e2 : rowMax t r = rowMax t' b :=
    congrArg (fun f => Finset.fold max (Ideal.ofBits .f32 0xFF800000#32) f (Finset.univ : Finset (Fin 2048)))
      (funext ht)
  have e3 : rowMin t r = rowMin t' b :=
    congrArg (fun f => Finset.fold min (Ideal.ofBits .f32 0x7F800000#32) f (Finset.univ : Finset (Fin 2048)))
      (funext ht)
  unfold nrmse
  rw [e1, e2, e3]

/-- Likewise a row's loss. -/
theorem rowLoss_congr (o1 t1 o2 t2 o3 t3 : Arr n) (o1' t1' o2' t2' o3' t3' : Arr n') (r : Fin n) (b : Fin n')
    (h1 : ∀ k, o1 (ix3 r 0 k) = o1' (ix3 b 0 k)) (h2 : ∀ k, t1 (ix3 r 0 k) = t1' (ix3 b 0 k))
    (h3 : ∀ k, o2 (ix3 r 0 k) = o2' (ix3 b 0 k)) (h4 : ∀ k, t2 (ix3 r 0 k) = t2' (ix3 b 0 k))
    (h5 : ∀ k, o3 (ix3 r 0 k) = o3' (ix3 b 0 k)) (h6 : ∀ k, t3 (ix3 r 0 k) = t3' (ix3 b 0 k)) :
    rowLoss o1 t1 o2 t2 o3 t3 r = rowLoss o1' t1' o2' t2' o3' t3' b := by
  unfold rowLoss
  rw [nrmse_congr o1 t1 o1' t1' r b h1 h2, nrmse_congr o2 t2 o2' t2' r b h3 h4, nrmse_congr o3 t3 o3' t3' r b h5 h6]

end Cert.Loss

end
-- ==== Proof.RefSide.lean ====
/-
  The reference program's result as the loss function of its six argument arrays.

  Each argument is a [4096, 1, 2048] array. The reference reduces such an array over its two trailing axes into a
  vector of 4096 entries, three times by a sum (of the squared differences) and six times by a maximum or a minimum
  (of a target array). Row `p` of such a reduction reads exactly the source entries whose leading coordinate is `p`:
  the middle axis has one position, so these are the entries `(p, 0, k)`, one for each of the 2048 positions `k`.
  The set of source indices that drop to `p` is therefore the image of the positions under `k ↦ (p, 0, k)`
  (`filter_drop_row`), and a sum over that set is the sum over the positions (`hostSum_row`), a fold of `max` or `min`
  over it the fold over the positions (`hostMax_row`, `hostMin_row`).

  With the reductions read, each stage of the reference at row `b` is the corresponding expression of the loss
  function: the three normalised errors (`nrmse_pair₁`, `nrmse_pair₂`, `nrmse_pair₃`), their weighted sum
  (`rowLoss_row`), and, summing the rows through the bijection between the indices of a vector of 4096 entries and
  `Fin 4096`, the mean over the rows (`result_eq`).
-/
import proofs.«164895_j17085379903763_2_alg».proof.Proof.Spec
import proofs.«164895_j17085379903763_2_alg».proof.Proof.Gen.ReferenceIdeal.Read
import Idealize.ShloMosaic.Lib.IdealHost

noncomputable section

namespace Cert.RefSide

open Idealize.ShloMosaic Idealize.ShloMosaic.ValueIdx
open Cert.ReferenceIdeal Cert.ReferenceIdeal.Gen Cert.ReferenceIdeal.Read

/-! ## A reduction of a [4096, 1, 2048] array over its two trailing axes, read at a row -/

section Row

/-- The positions of row `p`: `k ↦ (p, 0, k)`, an injection of the 2048 positions into the array's indices. -/
def rowEmb (p : Fin 4096) : Fin 2048 ↪ (⟨3, ![4096, 1, 2048]⟩ : Shape).Idx where
  toFun k := ix3 p 0 k
  inj' k k' hk := by
    have h2 := congrFun hk (2 : Fin 3)
    exact h2

theorem rowEmb_apply (p : Fin 4096) (k : Fin 2048) : rowEmb p k = ix3 p 0 k := rfl

/-- The source indices that drop to row `p` are exactly the entries `(p, 0, k)`. -/
theorem filter_drop_row (h : (⟨3, ![4096, 1, 2048]⟩ : Shape).ReducesTo [1, 2] ⟨1, ![4096]⟩) (p : Fin 4096) :
    (Finset.univ.filter fun i => h.drop i = ix1 p) = Finset.univ.map (rowEmb p) := by
  ext i
  simp only [Finset.mem_filter, Finset.mem_univ, true_and, Finset.mem_map, rowEmb_apply]
  constructor
  · intro hi
    have h0 : ((h.drop i ⟨0, by decide⟩ : Fin _) : ℕ) = i ⟨0, by decide⟩ :=
      h.drop_apply_val_of_eq i ⟨0, by decide⟩ ⟨0, by decide⟩
    rw [hi] at h0
    refine ⟨i (2 : Fin 3), ?_⟩
    funext d
    match d with
    | ⟨0, _⟩ => exact Fin.ext h0
    | ⟨1, _⟩ => exact Subsingleton.elim (α := Fin 1) _ _
    | ⟨2, _⟩ => rfl
  · rintro ⟨k, rfl⟩
    funext d
    match d with
    | ⟨0, _⟩ => exact Fin.ext (h.drop_apply_val_of_eq _ ⟨0, by decide⟩ ⟨0, by decide⟩)

/-- The host's sum over the two trailing axes, read at row `p`: the initial value plus the sum of the row's entries. -/
theorem hostSum_row {u : Shape} (x : FVec Ideal ⟨3, ![4096, 1, 2048]⟩ .f32) (init : u.Idx → Ideal .f32)
    (h : (⟨3, ![4096, 1, 2048]⟩ : Shape).ReducesTo [1, 2] ⟨1, ![4096]⟩) (hu : 0 < u.numel) (p : Fin 4096) :
    Host.reduceAdd x init h hu (ix1 p) = init (Shape.Idx.first hu) + ∑ k : Fin 2048, x (ix3 p 0 k) := by
  rw [hostReduceAdd_apply]
  unfold Ideal.hostReduceAdd
  rw [filter_drop_row, Finset.sum_map]
  rfl

/-- The host's maximum over the two trailing axes, read at row `p`: the fold of `max` from the initial value over
    the row's entries. -/
theorem hostMax_row {u : Shape} (x : FVec Ideal ⟨3, ![4096, 1, 2048]⟩ .f32) (init : u.Idx → Ideal .f32)
    (h : (⟨3, ![4096, 1, 2048]⟩ : Shape).ReducesTo [1, 2] ⟨1, ![4096]⟩) (hu : 0 < u.numel) (p : Fin 4096) :
    Host.reduce (FloatOps.maximumf (F := Ideal) (φ := .f32)) x init h hu (ix1 p)
      = (Finset.univ : Finset (Fin 2048)).fold max (init (Shape.Idx.first hu)) fun k => x (ix3 p 0 k) := by
  rw [Host.reduce_eq_fold, filter_drop_row, Finset.fold_map]
  rfl

/-- The host's minimum over the two trailing axes, read at row `p`: the fold of `min` from the initial value over
    the row's entries. -/
theorem hostMin_row {u : Shape} (x : FVec Ideal ⟨3, ![4096, 1, 2048]⟩ .f32) (init : u.Idx → Ideal .f32)
    (h : (⟨3, ![4096, 1, 2048]⟩ : Shape).ReducesTo [1, 2] ⟨1, ![4096]⟩) (hu : 0 < u.numel) (p : Fin 4096) :
    Host.reduce (FloatOps.minimumf (F := Ideal) (φ := .f32)) x init h hu (ix1 p)
      = (Finset.univ : Finset (Fin 2048)).fold min (init (Shape.Idx.first hu)) fun k => x (ix3 p 0 k) := by
  rw [Host.reduce_eq_fold, filter_drop_row, Finset.fold_map]
  rfl

end Row

/-! ## The reference's stages at a row -/

/-- The reference's first normalised error at row `b` is the loss function's. -/
theorem nrmse_pair₁ (x0 x1 : (⟨S4096x1x2048, .f32⟩ : BufTy).Contents (Elt Ideal)) (b : Fin 4096) :
    val_main_v9 (F := Ideal) x0 x1 (ix1 b) = Cert.Loss.nrmse x0 x1 b := by
  rw [val_main_v9_apply, val_main_v5_apply, val_main_v4_apply, val_main_v8_apply, val_main_v3_apply, val_main_cst_0_apply]
  unfold val_main_v2 val_main_v6 val_main_v7
  rw [hostSum_row, hostMax_row, hostMin_row]
  simp only [val_main_cst_apply, val_main_cst_1_apply, val_main_cst_2_apply, val_main_v1_apply, val_main_v0_apply, Ideal.subf_def,
    Ideal.mulf_def, Ideal.hostDivf_def, Ideal.hostUnary_sqrt_def, Ideal.ofBits_def, Ideal.ofBits_zero_f32, zero_add]
  rfl

/-- The reference's second normalised error at row `b` is the loss function's. -/
theorem nrmse_pair₂ (x2 x3 : (⟨S4096x1x2048, .f32⟩ : BufTy).Contents (Elt Ideal)) (b : Fin 4096) :
    val_main_v21 (F := Ideal) x2 x3 (ix1 b) = Cert.Loss.nrmse x2 x3 b := by
  rw [val_main_v21_apply, val_main_v17_apply, val_main_v16_apply, val_main_v20_apply, val_main_v15_apply, val_main_cst_5_apply]
  unfold val_main_v14 val_main_v18 val_main_v19
  rw [hostSum_row, hostMax_row, hostMin_row]
  simp only [val_main_cst_4_apply, val_main_cst_6_apply, val_main_cst_7_apply, val_main_v13_apply, val_main_v12_apply, Ideal.subf_def,
    Ideal.mulf_def, Ideal.hostDivf_def, Ideal.hostUnary_sqrt_def, Ideal.ofBits_def, Ideal.ofBits_zero_f32, zero_add]
  rfl

/-- The reference's third normalised error at row `b` is the loss function's. -/
theorem nrmse_pair₃ (x4 x5 : (⟨S4096x1x2048, .f32⟩ : BufTy).Contents (Elt Ideal)) (b : Fin 4096) :
    val_main_v34 (F := Ideal) x4 x5 (ix1 b) = Cert.Loss.nrmse x4 x5 b := by
  rw [val_main_v34_apply, val_main_v30_apply, val_main_v29_apply, val_main_v33_apply, val_main_v28_apply, val_main_cst_10_apply]
  unfold val_main_v27 val_main_v31 val_main_v32
  rw [hostSum_row, hostMax_row, hostMin_row]
  simp only [val_main_cst_9_apply, val_main_cst_11_apply, val_main_cst_12_apply, val_main_v26_apply, val_main_v25_apply, Ideal.subf_def,
    Ideal.mulf_def, Ideal.hostDivf_def, Ideal.hostUnary_sqrt_def, Ideal.ofBits_def, Ideal.ofBits_zero_f32, zero_add]
  rfl

/-- The reference's weighted sum of the three normalised errors at row `b` is the row's loss. -/
theorem rowLoss_row (x0 x1 x2 x3 x4 x5 : (⟨S4096x1x2048, .f32⟩ : BufTy).Contents (Elt Ideal)) (b : Fin 4096) :
    val_main_v37 (F := Ideal) x0 x1 x2 x3 x4 x5 (ix1 b) = Cert.Loss.rowLoss x0 x1 x2 x3 x4 x5 b := by
  rw [val_main_v37_apply, val_main_v24_apply, val_main_v11_apply, val_main_v23_apply, val_main_v36_apply,
    val_main_v10_apply, val_main_v22_apply, val_main_v35_apply, val_main_cst_3_apply, val_main_cst_8_apply,
    val_main_cst_13_apply, nrmse_pair₁, nrmse_pair₂, nrmse_pair₃]
  rfl

/-! ## The mean over the rows -/

/-- The indices of a vector of 4096 entries are its 4096 coordinates. -/
def rowEquiv : Fin 4096 ≃ (⟨1, ![4096]⟩ : Shape).Idx where
  toFun b := ix1 b
  invFun j := j (0 : Fin 1)
  left_inv _ := rfl
  right_inv j := (eq_ix1 j).symm

/-- The reference's result, at its one index, is the loss of the six arrays. -/
theorem result_eq (x0 x1 x2 x3 x4 x5 : (⟨S4096x1x2048, .f32⟩ : BufTy).Contents (Elt Ideal)) :
    val_main_v39 (F := Ideal) x0 x1 x2 x3 x4 x5 = fun _ => Cert.Loss.total x0 x1 x2 x3 x4 x5 := by
  funext i
  have hs : ∑ j : S4096.Idx, val_main_v37 (F := Ideal) x0 x1 x2 x3 x4 x5 j
      = ∑ b : Fin 4096, Cert.Loss.rowLoss x0 x1 x2 x3 x4 x5 b := by
    rw [← Equiv.sum_comp rowEquiv]
    exact Finset.sum_congr rfl fun b _ => rowLoss_row x0 x1 x2 x3 x4 x5 b
  rw [val_main_v39_apply, val_main_v38_apply, val_main_cst_14_apply, val_main_cst_15_apply, hs]
  rfl

end Cert.RefSide

end
-- ==== Proof.Pieces.lean ====
/-
  What one run of the kernel body leaves behind, as values.

  The body keeps a [1,1] running total in a scratch buffer. At every grid point it adds to the total the sum, over the
  point's 256 rows, of the rows' weighted losses (one store covering the whole scratch buffer); at the first point it
  first resets the total to the zero word; at the last point it also stores the total divided by 4096 into the [1,1]
  output block. So, in terms of the body's named arithmetic: the scratch ends at `k0_pay1` of the six input blocks and
  of the previous total (the zero block `k0_pay3` at the first point), and at the last point the output block ends at
  `k0_pay2` of that new total. These hold for any float instance.
-/
import proofs.«164895_j17085379903763_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new running total from the six input blocks and the previous total `acc`: the body's one store into the
    scratch buffer. -/
def step (x0 x1 x2 x3 x4 x5 : Vec F S256x1x2048 .f32) (acc : Vec F S1x1 .f32) : Vec F S1x1 .f32 :=
  k0_pay1 (k0_pay4 x0 x1) (k0_pay6 x2 x3) (k0_pay7 x3) x4 x5 acc

/-- A middle point: the scratch buffer, holding `xs0`, ends at the new total over `xs0`. -/
theorem sout_B (c : Dev nD) (i : grid0.Coords) (a1 : Memref sig .tc .vmem S256x1x2048 .f32) (h1 : a1.IsWhole) (a2 : Memref sig .tc .vmem S256x1x2048 .f32) (h2 : a2.IsWhole) (a3 : Memref sig .tc .vmem S256x1x2048 .f32) (h3 : a3.IsWhole) (a4 : Memref sig .tc .vmem S256x1x2048 .f32) (h4 : a4.IsWhole) (a5 : Memref sig .tc .vmem S256x1x2048 .f32) (h5 : a5.IsWhole) (a6 : Memref sig .tc .vmem S256x1x2048 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 x1 x2 x3 x4 x5 : Vec F S256x1x2048 .f32) (xs0 : Vec F S1x1 .f32) :
    sout0_B_0 c i a1 h1 a2 h2 a3 h3 a4 h4 a5 h5 a6 h6 a7 h7 a8 h8 hc0 hc1 x0 x1 x2 x3 x4 x5 xs0 = step x0 x1 x2 x3 x4 x5 xs0 := by
  unfold sout0_B_0
  rw [View.read_writes_eq_canon _ _ _ (scover0_B_0 c i a1 h1 a2 h2 a3 h3 a4 h4 a5 h5 a6 h6 a7 h7 a8 h8 hc0 hc1 x0 x1 x2 x3 x4 x5 xs0)]
  unfold kernelRun0_B
  dsimp only
  sl_unfold_words
  rw [View.canon_unit_zero hz2]
  simp only [View.readAt_eq_ld, h1.read_unread, h2.read_unread, h3.read_unread, h4.read_unread, h5.read_unread, h6.read_unread, h8.read_unread, View.ld_unit_zero (S := S256x1x2048) hz3, View.ld_unit_zero (S := S1x1) hz2]
  rfl

/-- The last point: the same for the scratch buffer. -/
theorem sout_C (c : Dev nD) (i : grid0.Coords) (a1 : Memref sig .tc .vmem S256x1x2048 .f32) (h1 : a1.IsWhole) (a2 : Memref sig .tc .vmem S256x1x2048 .f32) (h2 : a2.IsWhole) (a3 : Memref sig .tc .vmem S256x1x2048 .f32) (h3 : a3.IsWhole) (a4 : Memref sig .tc .vmem S256x1x2048 .f32) (h4 : a4.IsWhole) (a5 : Memref sig .tc .vmem S256x1x2048 .f32) (h5 : a5.IsWhole) (a6 : Memref sig .tc .vmem S256x1x2048 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 x2 x3 x4 x5 : Vec F S256x1x2048 .f32) (xs0 : Vec F S1x1 .f32) :
    sout0_C_0 c i a1 h1 a2 h2 a3 h3 a4 h4 a5 h5 a6 h6 a7 h7 a8 h8 hc0 hc1 x0 x1 x2 x3 x4 x5 xs0 = step x0 x1 x2 x3 x4 x5 xs0 := by
  unfold sout0_C_0
  rw [View.read_writes_eq_canon _ _ _ (scover0_C_0 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz2]
  simp only [View.readAt_eq_ld, h1.read_unread, h2.read_unread, h3.read_unread, h4.read_unread, h5.read_unread, h6.read_unread, h8.read_unread, View.ld_unit_zero (S := S256x1x2048) hz3, View.ld_unit_zero (S := S1x1) hz2]
  rfl

/-- The last point: the output block ends at the new total divided by 4096. -/
theorem out_C (c : Dev nD) (i : grid0.Coords) (a1 : Memref sig .tc .vmem S256x1x2048 .f32) (h1 : a1.IsWhole) (a2 : Memref sig .tc .vmem S256x1x2048 .f32) (h2 : a2.IsWhole) (a3 : Memref sig .tc .vmem S256x1x2048 .f32) (h3 : a3.IsWhole) (a4 : Memref sig .tc .vmem S256x1x2048 .f32) (h4 : a4.IsWhole) (a5 : Memref sig .tc .vmem S256x1x2048 .f32) (h5 : a5.IsWhole) (a6 : Memref sig .tc .vmem S256x1x2048 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 x1 x2 x3 x4 x5 : Vec F S256x1x2048 .f32) (xs0 : Vec F S1x1 .f32) :
    out0_C_6 c i a1 h1 a2 h2 a3 h3 a4 h4 a5 h5 a6 h6 a7 h7 a8 h8 hc0 hc1 x0 x1 x2 x3 x4 x5 xs0 = k0_pay2 (step x0 x1 x2 x3 x4 x5 xs0) := by
  unfold out0_C_6
  rw [View.read_writes_eq_canon _ _ _ (cover0_C_6 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz2, View.readCov_unit_zero (S := S1x1) _ hz2]
  simp only [View.readAt_eq_ld, h1.read_unread, h2.read_unread, h3.read_unread, h4.read_unread, h5.read_unread, h6.read_unread, h8.read_unread, View.ld_unit_zero (S := S256x1x2048) hz3, View.ld_unit_zero (S := S1x1) hz2]
  rfl

/-- The first point: the total is reset to the zero block first, so the scratch ends at the new total over it. -/
theorem sout_A (c : Dev nD) (i : grid0.Coords) (a1 : Memref sig .tc .vmem S256x1x2048 .f32) (h1 : a1.IsWhole) (a2 : Memref sig .tc .vmem S256x1x2048 .f32) (h2 : a2.IsWhole) (a3 : Memref sig .tc .vmem S256x1x2048 .f32) (h3 : a3.IsWhole) (a4 : Memref sig .tc .vmem S256x1x2048 .f32) (h4 : a4.IsWhole) (a5 : Memref sig .tc .vmem S256x1x2048 .f32) (h5 : a5.IsWhole) (a6 : Memref sig .tc .vmem S256x1x2048 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 x1 x2 x3 x4 x5 : Vec F S256x1x2048 .f32) :
    sout0_A_0 c i a1 h1 a2 h2 a3 h3 a4 h4 a5 h5 a6 h6 a7 h7 a8 h8 hc0 hc1 x0 x1 x2 x3 x4 x5 = step x0 x1 x2 x3 x4 x5 (k0_pay3 (F := F)) := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, View.ld_unit_zero (S := S256x1x2048) hz3]
  rfl

end Cert.KernelIdeal.Pieces

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibMidUnit.lean ====
/-
  A middle unit axis dropped by a shape cast: an `[a, 1, c]` array cast to `[a, c]` reads, at `(p, k)`, the operand at
  `(p, 0, k)` — row-major, position `(p · 1 + 0) · c + k` of the one is position `p · c + k` of the other. The companion,
  for the middle axis, of the library's leading-unit-axis casts.
-/
import Idealize.ShloMosaic.Lib.Pipeline.Value
import Idealize.ShloMosaic.Lib.ValueIdx

namespace Cert.LibMidUnit

open Idealize.ShloMosaic Idealize.ShloMosaic.ValueIdx

variable {α : Type}

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

end Cert.LibMidUnit
-- ==== Proof.KernelRow.lean ====
/-
  The kernel body's arithmetic, read at an index, at the ideal instance.

  One grid point loads six blocks of 256 rows. For each pair (prediction, target) the body drops the unit channel
  axis, sums the squared differences along the 2048 positions, divides by 2048, takes the square root, and divides by
  the row's range (maximum from -∞ minus minimum from +∞); it weights the three terms ½, ¼, ¼, sums the 256 rows'
  losses, and adds that to the running total. Read at a row, each of these is the specification's function of the
  block's row (the block taken as an array of 256 rows), so the new total is the old one plus the sum of the block's
  256 row losses. The reductions are read by the general lemmas on sums, maxima and minima along an axis; every other
  operation acts entry by entry.
-/
import proofs.«164895_j17085379903763_2_alg».proof.Proof.Gen.KernelIdeal.Skeleton
import proofs.«164895_j17085379903763_2_alg».proof.Proof.Spec
import proofs.«164895_j17085379903763_2_alg».proof.Proof.LibAxisFold
import proofs.«164895_j17085379903763_2_alg».proof.Proof.LibRowMax
import proofs.«164895_j17085379903763_2_alg».proof.Proof.LibColumnCast
import proofs.«164895_j17085379903763_2_alg».proof.Proof.LibMidUnit
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen
open Idealize.ShloMosaic Idealize.ShloMosaic.ValueIdx
open Cert.Loss

/-- A block of 256 rows, as the kernel body loads it. -/
abbrev Blk : Type := Vec Ideal S256x1x2048 .f32

/-! ## The layout steps and the three reductions of a block, read at a row -/

/-- The block with its unit channel axis dropped, at row `r` and position `k`, is the block at `(r, 0, k)`. -/
theorem squeeze (x : Blk) (r : Fin 256) (k : Fin 2048) :
    shapeCast S256x2048 x shapeCasts_S256x1x2048_S256x2048 (ix2 r k) = x (ix3 r 0 k) :=
  Cert.LibMidUnit.shapeCast_a1c_ac_apply x _ r k

/-- The square root acts entry by entry. -/
theorem sqrt_apply {s : Shape} (a : FVec Ideal s .f32) (i : s.Idx) : sqrt a i = Ideal.sqrt (a i) := rfl

/-- The sum of squared differences along the positions, stood up as a column, at row `r`. -/
theorem sumSqRow (o t : Blk) (r : Fin 256) :
    shapeCast S256x1 (multiReduction (F := Ideal) .add [1] S256 (mulf (subf (shapeCast S256x2048 o shapeCasts_S256x1x2048_S256x2048) (shapeCast S256x2048 t shapeCasts_S256x1x2048_S256x2048)) (subf (shapeCast S256x2048 o shapeCasts_S256x1x2048_S256x2048) (shapeCast S256x2048 t shapeCasts_S256x1x2048_S256x2048)))
        0x00000000#32 reduces_S256x2048_S256 (.inl rfl) rfl) shapeCasts_S256_S256x1 (ix2 r 0)
      = sumSq o t r := by
  refine (Cert.LibColumnCast.shapeCast_a_a1_apply _ _ r 0).trans ?_
  refine (Cert.LibAxisFold.laneSum_row _ _ _ _ r).trans ?_
  refine Finset.sum_congr rfl fun k _ => ?_
  rw [mulf_apply, subf_apply, squeeze, squeeze]

/-- The maximum along the positions from -∞, stood up as a column, at row `r`. -/
theorem maxRow (t : Blk) (r : Fin 256) :
    shapeCast S256x1 (multiReduction (F := Ideal) .maximumf [1] S256 (shapeCast S256x2048 t shapeCasts_S256x1x2048_S256x2048) 0xFF800000#32 reduces_S256x2048_S256 (.inl rfl) rfl)
        shapeCasts_S256_S256x1 (ix2 r 0)
      = rowMax t r := by
  refine (Cert.LibColumnCast.shapeCast_a_a1_apply _ _ r 0).trans ?_
  refine (Cert.LibRowMax.laneMax_row _ _ _ _ r).trans ?_
  exact congrArg (fun f => Finset.fold max (Ideal.ofBits .f32 0xFF800000#32) f (Finset.univ : Finset (Fin 2048)))
    (funext fun k => squeeze t r k)

/-- The minimum along the positions from +∞, stood up as a column, at row `r`. -/
theorem minRow (t : Blk) (r : Fin 256) :
    shapeCast S256x1 (multiReduction (F := Ideal) .minimumf [1] S256 (shapeCast S256x2048 t shapeCasts_S256x1x2048_S256x2048) 0x7F800000#32 reduces_S256x2048_S256 (.inl rfl) rfl)
        shapeCasts_S256_S256x1 (ix2 r 0)
      = rowMin t r := by
  refine (Cert.LibColumnCast.shapeCast_a_a1_apply _ _ r 0).trans ?_
  refine (Cert.LibAxisFold.laneMin_row _ _ _ _ r).trans ?_
  exact congrArg (fun f => Finset.fold min (Ideal.ofBits .f32 0x7F800000#32) f (Finset.univ : Finset (Fin 2048)))
    (funext fun k => squeeze t r k)

/-! ## The body's named values at a row: each is the specification's function of the block's row -/

/-- The target's range at row `r`. -/
theorem pay7_apply (t : Blk) (r : Fin 256) : k0_pay7 t (ix2 r 0) = rowMax t r - rowMin t r := by
  unfold k0_pay7 k0_pay5
  dsimp only
  rw [subf_apply, maxRow, minRow]

/-- The root-mean-square error at row `r`. -/
theorem pay6_apply (o t : Blk) (r : Fin 256) :
    k0_pay6 o t (ix2 r 0) = Ideal.sqrt (Ideal.div (sumSq o t r) (Ideal.ofBits .f32 0x45000000#32)) := by
  unfold k0_pay6 k0_pay5
  dsimp only
  rw [sqrt_apply, divf_apply, sumSqRow]
  rfl

/-- The normalised error at row `r`. -/
theorem pay4_apply (o t : Blk) (r : Fin 256) : k0_pay4 o t (ix2 r 0) = nrmse o t r := by
  unfold k0_pay4
  dsimp only
  rw [divf_apply, sqrt_apply, divf_apply, sumSqRow, subf_apply, maxRow, minRow]
  rfl

/-- The zero block the first point resets the running total to. -/
theorem pay3_apply (j : S1x1.Idx) : k0_pay3 (F := Ideal) j = Ideal.ofBits .f32 0x00000000#32 := by
  unfold k0_pay3
  rw [shapeCast_self]
  rfl

/-- THE STEP: the new running total is the previous one plus the sum, over the block's 256 rows, of the rows' losses
    (the third pair's normalised error is computed in line by the same operations as the first pair's). -/
theorem step_apply (x0 x1 x2 x3 x4 x5 : Blk) (acc : Vec Ideal S1x1 .f32) :
    k0_pay1 (k0_pay4 x0 x1) (k0_pay6 x2 x3) (k0_pay7 x3) x4 x5 acc (ix2 0 0)
      = acc (ix2 0 0) + ∑ r : Fin 256, rowLoss x0 x1 x2 x3 x4 x5 r := by
  unfold k0_pay1
  dsimp only
  rw [shapeCast_self, addf_apply]
  refine congrArg (acc (ix2 0 0) + ·) ?_
  refine (Cert.LibColumnCast.shapeCast_a_a1_apply _ _ (0 : Fin 1) (0 : Fin 1)).trans ?_
  refine (Cert.LibAxisFold.sublaneSum_col _ _ _ _ (0 : Fin 1)).trans ?_
  refine Finset.sum_congr rfl fun r _ => ?_
  rw [addf_apply, addf_apply, mulf_apply, mulf_apply, mulf_apply, divf_apply, divf_apply, pay4_apply, pay6_apply,
    pay7_apply, sqrt_apply, divf_apply, sumSqRow, subf_apply, maxRow, minRow]
  rfl

/-- The output block at the last point: the running total divided by 4096. -/
theorem pay2_apply (acc : Vec Ideal S1x1 .f32) (j : S1x1.Idx) :
    k0_pay2 acc j = Ideal.div (acc j) (Ideal.ofBits .f32 0x45800000#32) := rfl

end Cert.KernelIdeal.Row

end
-- ==== Proof.PointStep.lean ====
/-
  The running total, point by point.

  The grid has 16 points; point `t` loads rows 256·t … 256·t + 255 of the six arrays. The scratch buffer's one entry
  holds the running total of the rows' losses: after point `t` it is the total before `t` plus the sum of the 256 row
  losses of the blocks at `t` (`scratch_step`) — the first point starting from the zero word —, and at the last point the
  output block's entry is that new total divided by 4096 (`out_last`). Each follows from what one run of the body
  leaves (the piece lemmas) read at the entry (the body's arithmetic at a row).
-/
import proofs.«164895_j17085379903763_2_alg».proof.Proof.Gen.KernelIdeal.Frame
import proofs.«164895_j17085379903763_2_alg».proof.Proof.Pieces
import proofs.«164895_j17085379903763_2_alg».proof.Proof.KernelRow
import proofs.«164895_j17085379903763_2_alg».proof.Proof.Spec
import Idealize.ShloMosaic.Lib.Pipeline.Value
import Idealize.ShloMosaic.Lib.ValueIdx

set_option maxRecDepth 16384

noncomputable section

namespace Cert.KernelIdeal.PointStep

open Cert.KernelIdeal Cert.KernelIdeal.Gen
open Idealize.ShloMosaic Idealize.ShloMosaic.TcCoe Idealize.SL.Sem Idealize.ShloMosaic.ValueIdx
open Cert.Loss

variable (m : (ℓ : Loc nD τ sig) → Buf (Elt Ideal) ℓ)

/-- A block of 256 rows. -/
abbrev Blk : Type := Vec Ideal S256x1x2048 .f32

/-- The running total BEFORE point `n`: the zero word before the first point, afterwards the scratch buffer's one
    entry as the point before left it. -/
def accAt (c : Dev nD) : ℕ → EReal
  | 0 => Ideal.ofBits .f32 0x00000000#32
  | n + 1 => if h : n < cfg0.N then (outsAt0 m c n h).2 (ix2 0 0) else 0

theorem accAt_succ (c : Dev nD) (n : ℕ) (h : n < cfg0.N) : accAt m c (n + 1) = (outsAt0 m c n h).2 (ix2 0 0) := dif_pos h

/-- The step at the scratch buffer's one entry. -/
theorem step_at (x0 x1 x2 x3 x4 x5 : Blk) (acc : Vec Ideal S1x1 .f32) :
    Pieces.step x0 x1 x2 x3 x4 x5 acc (ix2 0 0) = acc (ix2 0 0) + ∑ r : Fin 256, rowLoss x0 x1 x2 x3 x4 x5 r :=
  Row.step_apply x0 x1 x2 x3 x4 x5 acc

/-- The sum of the 256 row losses of the six blocks at point `t`. -/
def blockLoss (c : Dev nD) (t : Fin cfg0.N) : EReal :=
  ∑ r : Fin 256, rowLoss (n := 256) (iblk m c 0 t : Blk) (iblk m c 1 t : Blk) (iblk m c 2 t : Blk) (iblk m c 3 t : Blk) (iblk m c 4 t : Blk) (iblk m c 5 t : Blk) r

/-- THE STEP AT A POINT: after point `t` the scratch buffer's entry is the total before `t` plus the point's block loss.
    At the first point the body resets the scratch to the zero block first; at the others it adds to what the point
    before left (the last point stores the output besides, which does not change the scratch). -/
theorem scratch_step (c : Dev nD) (t : Fin cfg0.N) :
    (outsAt0 m c t.val t.isLt).2 (ix2 0 0) = accAt m c t.val + blockLoss m c t := by
  obtain ⟨n, hn⟩ := t
  have hN : cfg0.N = 16 := N_0
  cases n with
  | zero =>
    rw [outsAt0_A m c ⟨0, hn⟩ rfl (by show ¬ 0 % 16 = 15; decide)]
    dsimp only
    refine ((congrFun (Pieces.sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) _ _ (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)) (ix2 0 0)).trans
      (step_at (iblk m c 0 ⟨0, hn⟩ : Blk) (iblk m c 1 ⟨0, hn⟩ : Blk) (iblk m c 2 ⟨0, hn⟩ : Blk) (iblk m c 3 ⟨0, hn⟩ : Blk) (iblk m c 4 ⟨0, hn⟩ : Blk) (iblk m c 5 ⟨0, hn⟩ : Blk) (k0_pay3 (F := Ideal)))).trans ?_
    rw [Row.pay3_apply]
    rfl
  | succ n =>
    have h0 : ¬ (⟨n + 1, hn⟩ : Fin cfg0.N).val % 16 = 0 := by dsimp only; omega
    by_cases h1 : (⟨n + 1, hn⟩ : Fin cfg0.N).val % 16 = 15
    · rw [outsAt0_C m c ⟨n + 1, hn⟩ h0 h1]
      dsimp only
      refine ((congrFun (Pieces.sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt0 m c (n + 1 - 1) _).2) (ix2 0 0)).trans
        (step_at (iblk m c 0 ⟨n + 1, hn⟩ : Blk) (iblk m c 1 ⟨n + 1, hn⟩ : Blk) (iblk m c 2 ⟨n + 1, hn⟩ : Blk) (iblk m c 3 ⟨n + 1, hn⟩ : Blk) (iblk m c 4 ⟨n + 1, hn⟩ : Blk) (iblk m c 5 ⟨n + 1, hn⟩ : Blk) (outsAt0 m c (n + 1 - 1) _).2)).trans ?_
      rw [accAt_succ m c n (Nat.lt_of_succ_lt hn)]
      rfl
    · rw [outsAt0_B m c ⟨n + 1, hn⟩ h0 h1]
      dsimp only
      refine ((congrFun (Pieces.sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt0 m c (n + 1 - 1) _).2) (ix2 0 0)).trans
        (step_at (iblk m c 0 ⟨n + 1, hn⟩ : Blk) (iblk m c 1 ⟨n + 1, hn⟩ : Blk) (iblk m c 2 ⟨n + 1, hn⟩ : Blk) (iblk m c 3 ⟨n + 1, hn⟩ : Blk) (iblk m c 4 ⟨n + 1, hn⟩ : Blk) (iblk m c 5 ⟨n + 1, hn⟩ : Blk) (outsAt0 m c (n + 1 - 1) _).2)).trans ?_
      rw [accAt_succ m c n (Nat.lt_of_succ_lt hn)]
      rfl

/-- In the total's terms: the total before point `t + 1` is the total before `t` plus point `t`'s block loss. -/
theorem accAt_step (c : Dev nD) (t : Fin cfg0.N) : accAt m c (t.val + 1) = accAt m c t.val + blockLoss m c t :=
  (accAt_succ m c t.val t.isLt).trans (scratch_step m c t)

/-- THE LAST POINT'S OUTPUT: every entry of the [1,1] output block is the scratch buffer's new entry divided by 4096. -/
theorem out_last (c : Dev nD) (t : Fin cfg0.N) (h1 : t.val % 16 = 15) (j : S1x1.Idx) :
    (outsAt0 m c t.val t.isLt).1 j
      = Ideal.div ((outsAt0 m c t.val t.isLt).2 j) (Ideal.ofBits .f32 0x45800000#32) := by
  have hN : cfg0.N = 16 := N_0
  have h0 : ¬ t.val % 16 = 0 := by omega
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) _).2,
    Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) _).2]
  rfl

end Cert.KernelIdeal.PointStep

end
-- ==== Proof.BlockRead.lean ====
/-
  The kernel's input blocks as rows of the argument arrays.

  Each of the six argument arrays is [4096, 1, 2048]: 4096 rows, one channel, 2048 positions. The kernel walks a grid
  of 16 points; at point `t` each input window holds the block of 256 consecutive rows `256·t, …, 256·t + 255` of its
  array, whole along the other two axes: the block's index is `(t, 0, 0)`, and the entry `(r, 0, k)` of the block is
  the entry `(256·t + r, 0, k)` of the array (`iblk0_apply` … `iblk5_apply`). A row's loss reads that row only, so
  the 256 row losses of the six blocks at point `t` are the losses of rows `256·t, …, 256·t + 255` of the six arrays,
  and their sum is the sum of those (`blockSum`).
-/
import proofs.«164895_j17085379903763_2_alg».proof.Proof.Gen.KernelIdeal.Frame
import proofs.«164895_j17085379903763_2_alg».proof.Proof.Spec
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Window 0's block at point `t`: its entry `(r, 0, k)` is the array's entry `(256·t + r, 0, k)`. -/
theorem iblk0_apply (c : Dev nD) (t : Fin cfg0.N) (r : Fin 256) (k : Fin 2048) (b : Fin 4096)
    (hb : b.val = r.val + 256 * t.val) :
    (iblk m c 0 t : Vec Ideal S256x1x2048 .f32) (ix3 r 0 k)
      = (m ((c : Thread nD τ).loc main_arg0) : Cert.Loss.Arr 4096) (ix3 b 0 k) := by
  have hi : win0_0.index t 0 = t.val ∧ win0_0.index t 1 = 0 ∧ win0_0.index t 2 = 0 :=
    (by decide +kernel : ∀ t : Fin grid0.N,
      win0_0.index t 0 = t.val ∧ win0_0.index t 1 = 0 ∧ win0_0.index t 2 = 0) t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 256 + 1 * r.val = b.val; rw [hi.1, hb]; omega
  | ⟨1, _⟩ => show win0_0.index t 1 * 1 + 1 * 0 = 0; rw [hi.2.1]
  | ⟨2, _⟩ => show win0_0.index t 2 * 2048 + 1 * k.val = k.val; rw [hi.2.2]; omega

/-- Window 1's block at point `t`: its entry `(r, 0, k)` is the array's entry `(256·t + r, 0, k)`. -/
theorem iblk1_apply (c : Dev nD) (t : Fin cfg0.N) (r : Fin 256) (k : Fin 2048) (b : Fin 4096)
    (hb : b.val = r.val + 256 * t.val) :
    (iblk m c 1 t : Vec Ideal S256x1x2048 .f32) (ix3 r 0 k)
      = (m ((c : Thread nD τ).loc main_arg1) : Cert.Loss.Arr 4096) (ix3 b 0 k) := by
  have hi : win0_1.index t 0 = t.val ∧ win0_1.index t 1 = 0 ∧ win0_1.index t 2 = 0 :=
    (by decide +kernel : ∀ t : Fin grid0.N,
      win0_1.index t 0 = t.val ∧ win0_1.index t 1 = 0 ∧ win0_1.index t 2 = 0) t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 256 + 1 * r.val = b.val; rw [hi.1, hb]; omega
  | ⟨1, _⟩ => show win0_1.index t 1 * 1 + 1 * 0 = 0; rw [hi.2.1]
  | ⟨2, _⟩ => show win0_1.index t 2 * 2048 + 1 * k.val = k.val; rw [hi.2.2]; omega

/-- Window 2's block at point `t`: its entry `(r, 0, k)` is the array's entry `(256·t + r, 0, k)`. -/
theorem iblk2_apply (c : Dev nD) (t : Fin cfg0.N) (r : Fin 256) (k : Fin 2048) (b : Fin 4096)
    (hb : b.val = r.val + 256 * t.val) :
    (iblk m c 2 t : Vec Ideal S256x1x2048 .f32) (ix3 r 0 k)
      = (m ((c : Thread nD τ).loc main_arg2) : Cert.Loss.Arr 4096) (ix3 b 0 k) := by
  have hi : win0_2.index t 0 = t.val ∧ win0_2.index t 1 = 0 ∧ win0_2.index t 2 = 0 :=
    (by decide +kernel : ∀ t : Fin grid0.N,
      win0_2.index t 0 = t.val ∧ win0_2.index t 1 = 0 ∧ win0_2.index t 2 = 0) t
  unfold iblk
  rw [View.read_apply]
  show V m c main_arg2 _ = m (c.tc.loc main_arg2) _
  rw [V_main_arg2]
  refine congrArg _ (funext fun a => Fin.ext ?_)
  match a with
  | ⟨0, _⟩ => show win0_2.index t 0 * 256 + 1 * r.val = b.val; rw [hi.1, hb]; omega
  | ⟨1, _⟩ => show win0_2.index t 1 * 1 + 1 * 0 = 0; rw [hi.2.1]
  | ⟨2, _⟩ => show win0_2.index t 2 * 2048 + 1 * k.val = k.val; rw [hi.2.2]; omega

/-- Window 3's block at point `t`: its entry `(r, 0, k)` is the array's entry `(256·t + r, 0, k)`. -/
theorem iblk3_apply (c : Dev nD) (t : Fin cfg0.N) (r : Fin 256) (k : Fin 2048) (b : Fin 4096)
    (hb : b.val = r.val + 256 * t.val) :
    (iblk m c 3 t : Vec Ideal S256x1x2048 .f32) (ix3 r 0 k)
      = (m ((c : Thread nD τ).loc main_arg3) : Cert.Loss.Arr 4096) (ix3 b 0 k) := by
  have hi : win0_3.index t 0 = t.val ∧ win0_3.index t 1 = 0 ∧ win0_3.index t 2 = 0 :=
    (by decide +kernel : ∀ t : Fin grid0.N,
      win0_3.index t 0 = t.val ∧ win0_3.index t 1 = 0 ∧ win0_3.index t 2 = 0) t
  unfold iblk
  rw [View.read_apply]
  show V m c main_arg3 _ = m (c.tc.loc main_arg3) _
  rw [V_main_arg3]
  refine congrArg _ (funext fun a => Fin.ext ?_)
  match a with
  | ⟨0, _⟩ => show win0_3.index t 0 * 256 + 1 * r.val = b.val; rw [hi.1, hb]; omega
  | ⟨1, _⟩ => show win0_3.index t 1 * 1 + 1 * 0 = 0; rw [hi.2.1]
  | ⟨2, _⟩ => show win0_3.index t 2 * 2048 + 1 * k.val = k.val; rw [hi.2.2]; omega

/-- Window 4's block at point `t`: its entry `(r, 0, k)` is the array's entry `(256·t + r, 0, k)`. -/
theorem iblk4_apply (c : Dev nD) (t : Fin cfg0.N) (r : Fin 256) (k : Fin 2048) (b : Fin 4096)
    (hb : b.val = r.val + 256 * t.val) :
    (iblk m c 4 t : Vec Ideal S256x1x2048 .f32) (ix3 r 0 k)
      = (m ((c : Thread nD τ).loc main_arg4) : Cert.Loss.Arr 4096) (ix3 b 0 k) := by
  have hi : win0_4.index t 0 = t.val ∧ win0_4.index t 1 = 0 ∧ win0_4.index t 2 = 0 :=
    (by decide +kernel : ∀ t : Fin grid0.N,
      win0_4.index t 0 = t.val ∧ win0_4.index t 1 = 0 ∧ win0_4.index t 2 = 0) t
  unfold iblk
  rw [View.read_apply]
  show V m c main_arg4 _ = m (c.tc.loc main_arg4) _
  rw [V_main_arg4]
  refine congrArg _ (funext fun a => Fin.ext ?_)
  match a with
  | ⟨0, _⟩ => show win0_4.index t 0 * 256 + 1 * r.val = b.val; rw [hi.1, hb]; omega
  | ⟨1, _⟩ => show win0_4.index t 1 * 1 + 1 * 0 = 0; rw [hi.2.1]
  | ⟨2, _⟩ => show win0_4.index t 2 * 2048 + 1 * k.val = k.val; rw [hi.2.2]; omega

/-- Window 5's block at point `t`: its entry `(r, 0, k)` is the array's entry `(256·t + r, 0, k)`. -/
theorem iblk5_apply (c : Dev nD) (t : Fin cfg0.N) (r : Fin 256) (k : Fin 2048) (b : Fin 4096)
    (hb : b.val = r.val + 256 * t.val) :
    (iblk m c 5 t : Vec Ideal S256x1x2048 .f32) (ix3 r 0 k)
      = (m ((c : Thread nD τ).loc main_arg5) : Cert.Loss.Arr 4096) (ix3 b 0 k) := by
  have hi : win0_5.index t 0 = t.val ∧ win0_5.index t 1 = 0 ∧ win0_5.index t 2 = 0 :=
    (by decide +kernel : ∀ t : Fin grid0.N,
      win0_5.index t 0 = t.val ∧ win0_5.index t 1 = 0 ∧ win0_5.index t 2 = 0) t
  unfold iblk
  rw [View.read_apply]
  show V m c main_arg5 _ = m (c.tc.loc main_arg5) _
  rw [V_main_arg5]
  refine congrArg _ (funext fun a => Fin.ext ?_)
  match a with
  | ⟨0, _⟩ => show win0_5.index t 0 * 256 + 1 * r.val = b.val; rw [hi.1, hb]; omega
  | ⟨1, _⟩ => show win0_5.index t 1 * 1 + 1 * 0 = 0; rw [hi.2.1]
  | ⟨2, _⟩ => show win0_5.index t 2 * 2048 + 1 * k.val = k.val; rw [hi.2.2]; omega

/-- The loss of row `b` of the six argument arrays. -/
def lossAt (c : Dev nD) (b : Fin 4096) : EReal :=
  Cert.Loss.rowLoss (m ((c : Thread nD τ).loc main_arg0) : Cert.Loss.Arr 4096) (m ((c : Thread nD τ).loc main_arg1) : Cert.Loss.Arr 4096)
    (m ((c : Thread nD τ).loc main_arg2) : Cert.Loss.Arr 4096) (m ((c : Thread nD τ).loc main_arg3) : Cert.Loss.Arr 4096)
    (m ((c : Thread nD τ).loc main_arg4) : Cert.Loss.Arr 4096) (m ((c : Thread nD τ).loc main_arg5) : Cert.Loss.Arr 4096) b

/-- The 256 row losses of the six blocks at point `t` sum to the losses of rows `256·t, …, 256·t + 255` of the six
    arrays: row `r` of each block is row `256·t + r` of its array, and a row's loss reads that row only. -/
theorem blockSum (c : Dev nD) (t : Fin cfg0.N) (hb : ∀ j : Fin 256, j.val + 256 * t.val < 4096) :
    ∑ r : Fin 256, Cert.Loss.rowLoss (n := 256) (iblk m c 0 t : Vec Ideal S256x1x2048 .f32) (iblk m c 1 t : Vec Ideal S256x1x2048 .f32)
        (iblk m c 2 t : Vec Ideal S256x1x2048 .f32) (iblk m c 3 t : Vec Ideal S256x1x2048 .f32)
        (iblk m c 4 t : Vec Ideal S256x1x2048 .f32) (iblk m c 5 t : Vec Ideal S256x1x2048 .f32) r
      = ∑ j : Fin 256, lossAt m c ⟨j.val + 256 * t.val, hb j⟩ := by
  refine Finset.sum_congr rfl fun r _ => ?_
  unfold lossAt
  exact Cert.Loss.rowLoss_congr _ _ _ _ _ _ _ _ _ _ _ _ r ⟨r.val + 256 * t.val, hb r⟩
    (fun k => iblk0_apply m c t r k _ rfl) (fun k => iblk1_apply m c t r k _ rfl)
    (fun k => iblk2_apply m c t r k _ rfl) (fun k => iblk3_apply m c t r k _ rfl)
    (fun k => iblk4_apply m c t r k _ rfl) (fun k => iblk5_apply m c t r k _ rfl)

end Cert.KernelIdeal.Blocks

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Accum.lean ====
/-
  The running total over the whole grid, and the output's entry.

  The total before point `t + 1` is the total before `t` plus the sum of the 256 row losses of the blocks at `t`, and
  block `t`'s row `r` is row `r + 256·t` of the arrays; so the sixteen steps add up the losses of all 4096 = 16·256 rows,
  chunk by chunk, from the zero word: after the last point the scratch buffer's entry is the zero word plus the sum
  over all rows (a sum over `a·b` indices is the sum of its `a` chunk sums, in any commutative additive monoid — no
  finiteness of the values is needed, so the precondition is not used). The last point stores that total divided by
  4096 into the output block: the loss function of the six arrays.
-/
import proofs.«164895_j17085379903763_2_alg».proof.Proof.PointStep
import proofs.«164895_j17085379903763_2_alg».proof.Proof.BlockRead
import proofs.«164895_j17085379903763_2_alg».proof.Proof.LibSumChunks
import proofs.«164895_j17085379903763_2_alg».proof.Proof.Spec

noncomputable section

namespace Cert.KernelIdeal.Accum

open Cert.KernelIdeal Cert.KernelIdeal.Gen
open Idealize.ShloMosaic Idealize.ShloMosaic.TcCoe Idealize.SL.Sem Idealize.ShloMosaic.ValueIdx
open Cert.Loss

variable (m : (ℓ : Loc nD τ sig) → Buf (Elt Ideal) ℓ)

/-- The loss of core `c`'s six argument arrays. -/
def result (c : Dev nD) : EReal := total (m ((c : Thread nD τ).loc main_arg0) : Arr 4096) (m ((c : Thread nD τ).loc main_arg1) : Arr 4096) (m ((c : Thread nD τ).loc main_arg2) : Arr 4096) (m ((c : Thread nD τ).loc main_arg3) : Arr 4096) (m ((c : Thread nD τ).loc main_arg4) : Arr 4096) (m ((c : Thread nD τ).loc main_arg5) : Arr 4096)

/-- After the sixteen points the running total is the zero word plus the sum of all 4096 row losses. -/
theorem acc_total (c : Dev nD) :
    PointStep.accAt m c 16 = Ideal.ofBits .f32 0x00000000#32 + ∑ b : Fin 4096, Blocks.lossAt m c b := by
  have hN : cfg0.N = 16 := N_0
  refine Cert.Lib.SumChunks.fold_chunks_eq_sum 16 256 (by decide) (Blocks.lossAt m c) _ (PointStep.accAt m c) rfl
    (fun t => ?_)
  have ht : t.val < cfg0.N := by rw [hN]; exact t.isLt
  refine (PointStep.accAt_step m c ⟨t.val, ht⟩).trans ?_
  refine congrArg (PointStep.accAt m c t.val + ·) ?_
  exact Blocks.blockSum m c ⟨t.val, ht⟩ (fun j => by have := j.isLt; have := t.isLt; show j.val + 256 * t.val < 4096; omega)

/-- Every index of a [1,1] array is `(0, 0)`. -/
theorem idx11 (j : S1x1.Idx) : j = ix2 (0 : Fin 1) (0 : Fin 1) := by
  rw [eq_ix2 j]
  exact congrArg₂ ix2 (Subsingleton.elim (α := Fin 1) _ _) (Subsingleton.elim (α := Fin 1) _ _)

/-- THE OUTPUT: at the last point every entry of the output block is the loss of the six arrays. -/
theorem out_entry (c : Dev nD) (h : 15 < cfg0.N) (j : S1x1.Idx) : (outsAt0 m c 15 h).1 j = result m c := by
  rw [PointStep.out_last m c ⟨15, h⟩ rfl j, idx11 j]
  show Ideal.div ((outsAt0 m c 15 h).2 (ix2 0 0)) _ = _
  rw [← PointStep.accAt_succ m c 15 h, acc_total]
  rfl

end Cert.KernelIdeal.Accum

end
-- ==== Proof.FinalArray.lean ====
/-
  The kernel's result array after the run.

  The kernel's one output is a [1, 1] array. Its window's block is the whole array at every grid point (the index map
  is the constant (0, 0)), and of the 16 grid points only the last writes the block back. So if the last point leaves
  the value `g` in every entry of the output block, the array ends holding `g` (`final6`): the one write-back writes a
  block that is `g` everywhere (`flushed6`), and that block covers every index of the array. After the grid the
  program does one more operation, a reshape of the [1, 1] array into the rank-0 result; a reshape of a constant array
  is that constant, so the result is `g` (`tail_eq`). The result is no window's array, so the run's account of the
  buffers outside the windows is what speaks of it (`result_in_rest`); `run_of` assembles the run.
-/
import proofs.«164895_j17085379903763_2_alg».proof.Proof.Gen.KernelIdeal.Frame
import Idealize.ShloMosaic.Lib.Pipeline.Value
import Idealize.ShloMosaic.Lib.Pipeline.FrameSuffix
import Idealize.ShloMosaic.Lib.StableHlo.Run
import Idealize.ShloMosaic.Lib.Tactic
import Idealize.ShloMosaic.Lib.ValueIdx

noncomputable section

namespace Cert.KernelIdeal.FinalArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The one write-back, at the last point, writes the block that is `g` everywhere: the block of the constant array. -/
theorem flushed6 (c : Dev nD) (g : EReal) (hg : ∀ (h : 15 < cfg0.N) (j : S1x1.Idx), (outsAt0 m c 15 h).1 j = g)
    (t : Fin cfg0.N) (hf : (cfg0.win 6).flush t = true) :
    (dats m 0 c).flushed 6 t = ((cfg0.win 6).blk t).view.read (Elt Ideal) (fun _ => g) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6]
  funext x
  rw [View.read_apply]
  exact hg _ x

/-- So the result array ends holding `g` everywhere: the last point's block covers it. -/
theorem final6 (c : Dev nD) (g : EReal) (hg : ∀ (h : 15 < cfg0.N) (j : S1x1.Idx), (outsAt0 m c 15 h).1 j = g) :
    (dats m 0 c).arrAt 6 cfg0.N = fun _ => g :=
  (dats m 0 c).arrAt_eq_of_cover 6 (fun _ => g) (flushed6 m c g hg) fun i =>
    ⟨t0_15, (flush0_6 t0_15).mpr rfl, by
      show i ∈ ((View.whole main_v0).slice (win0_6.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index t0_15 0 * win0_6.size 0 ≤ (i 0 : Nat)
          ∧ (i 0 : Nat) < win0_6.index t0_15 0 * win0_6.size 0 + win0_6.xsize (grid0.coords t0_15) 0
        rw [show win0_6.index t0_15 0 * win0_6.size 0 = 0 from by decide +kernel,
          show win0_6.xsize (grid0.coords t0_15) 0 = 1 from by decide +kernel]
        omega
      | ⟨1, _⟩ =>
        show win0_6.index t0_15 1 * win0_6.size 1 ≤ (i 1 : Nat)
          ∧ (i 1 : Nat) < win0_6.index t0_15 1 * win0_6.size 1 + win0_6.xsize (grid0.coords t0_15) 1
        rw [show win0_6.index t0_15 1 * win0_6.size 1 = 0 from by decide +kernel,
          show win0_6.xsize (grid0.coords t0_15) 1 = 1 from by decide +kernel]
        omega⟩

/-- After the grid the program reshapes the [1, 1] array into the rank-0 result: if the array holds `g` everywhere, the
    result is `g` (a reshape reads its operand at some index, and the operand is `g` at every index). -/
theorem tail_eq (c : Dev nD) (g : EReal) (hfin : (dats m 0 c).arrAt 6 cfg0.N = fun _ => g) :
    Pipeline.afterTail₀ cfgs (dats m) 0 (V0 m) [hostOps1] c main_v1 = fun _ => g := by
  unfold Pipeline.afterTail₀
  show StableHlo.after hostOps1 _ (Proc.devRef .tc main_v1) = _
  after_results
  have h0 : Pipeline.withArrays (cfgs 0).spec c (V0 m c) (fun w => (dats m 0 c).arrAt w (cfgs 0).N)
      (Proc.devRef .tc main_v0) = fun _ => g :=
    (Pipeline.withArrays_arr spec0 launch0.win.arr_inj c _ _ 6).trans hfin
  rw [h0]
  funext j
  rfl

/-- The result is not scoped and is no window's array: it is among the buffers the grid leaves alone. -/
theorem result_in_rest : main_v1 ∈ Pipeline.restRefs sig cfg0.spec :=
  Pipeline.mem_restRefs_of main_v1 rfl (fun w => by fin_cases w <;> decide)

/-- THE RUN. If on every core the last point leaves `g c` in every entry of the output block, every weakly fair
    execution of the program terminates with the result at `g c` and the six argument arrays unchanged. -/
theorem run_of (ρ : Dev nD → PrngReg) (g : Dev nD → EReal)
    (hg : ∀ c (h : 15 < cfg0.N) (j : S1x1.Idx), (outsAt0 m c 15 h).1 j = g c) :
    θ_run defs (onTc (τ := τ) (main (F := Ideal))) ⟨m, fun _ => 0, ρ⟩ (fun r => ∀ c : Dev nD,
      r.2.mem ((c.tc : Thread nD τ).loc main_v1) = (fun _ => g c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v1 result_in_rest).trans (tail_eq m c (g c) (final6 m c (g c) (hg c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.FinalArray

end
-- ==== Proof.lean ====
/-
  The certificate of the weighted normalised-RMSE loss kernel against its reference program.

  Both programs compute, from three (prediction, target) pairs of [4096, 1, 2048] arrays, the mean over the 4096 rows
  of `½·nrmse₁ + ¼·nrmse₂ + ¼·nrmse₃`, where a row's `nrmse` is the root of its mean squared difference divided by the
  target row's range (`Cert.Loss.total`, Proof/Spec.lean). The reference does it with whole-array operations: three
  sums and six maxima / minima over the two trailing axes, then one sum over the rows (Proof/RefSide.lean reads its
  stages at a row). The kernel walks a grid of 16 points, each loading 256 rows of every array; it computes the 256
  row losses, sums them, adds the sum to a running total kept in a scratch buffer (reset to zero at the first point),
  and at the last point stores the total divided by 4096 (Proof/Pieces.lean: what one run of the body leaves;
  Proof/KernelRow.lean: its arithmetic at a row; Proof/BlockRead.lean: a block's row is the array's row;
  Proof/PointStep.lean and Proof/Accum.lean: the total point by point and over the grid; Proof/FinalArray.lean: the
  output array and the reshape of it that @main returns).

  Over the extended reals the two agree at EVERY input: per row they apply the same exact operations to the same
  entries, and the only difference — sixteen chunk sums accumulated in turn against one sum over all rows — is the
  regrouping of a finite sum, which holds in any commutative additive monoid. So the precondition (finite inputs) is
  not used by the value claim. The idealization rewrote nothing, so `preserves` is trivial; the kernels' frames are the
  generated frame certificates, the reference's frame its generated run with the result dropped.
-/
import proofs.«164895_j17085379903763_2_alg».proof.Defs
import proofs.«164895_j17085379903763_2_alg».proof.Proof.Gen.Kernel
import proofs.«164895_j17085379903763_2_alg».proof.Proof.Gen.Kernel.Skeleton
import proofs.«164895_j17085379903763_2_alg».proof.Proof.Gen.Kernel.Launch
import proofs.«164895_j17085379903763_2_alg».proof.Proof.Gen.Kernel.Points
import proofs.«164895_j17085379903763_2_alg».proof.Proof.Gen.Kernel.Frame
import proofs.«164895_j17085379903763_2_alg».proof.Proof.Gen.KernelIdeal
import proofs.«164895_j17085379903763_2_alg».proof.Proof.Gen.KernelIdeal.Skeleton
import proofs.«164895_j17085379903763_2_alg».proof.Proof.Gen.KernelIdeal.Launch
import proofs.«164895_j17085379903763_2_alg».proof.Proof.Gen.KernelIdeal.Points
import proofs.«164895_j17085379903763_2_alg».proof.Proof.Gen.KernelIdeal.Frame
import proofs.«164895_j17085379903763_2_alg».proof.Proof.Gen.ReferenceIdeal
import proofs.«164895_j17085379903763_2_alg».proof.Proof.Gen.ReferenceIdeal.Run
import proofs.«164895_j17085379903763_2_alg».proof.Proof.Gen.ReferenceIdeal.Read
import proofs.«164895_j17085379903763_2_alg».proof.Proof.Gen.Pre_finite_inputs
import proofs.«164895_j17085379903763_2_alg».proof.Proof.RefSide
import proofs.«164895_j17085379903763_2_alg».proof.Proof.Accum
import proofs.«164895_j17085379903763_2_alg».proof.Proof.FinalArray
import Idealize.ShloMosaic.Adequacy
import Idealize.ShloMosaic.Init

noncomputable section

namespace Cert.Proof

open Idealize.ShloMosaic Idealize.SL.Sem

/-- The word-level kernel runs and leaves its arguments unchanged: the generated frame certificate. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result is the loss of its six arrays (the accumulated total over the grid,
    divided by 4096) and the reference's is the loss of ITS six arrays (its stages read at a row); the arrays agree. -/
theorem algebraic : Cert.algebraic_KernelIdeal_ReferenceIdeal := by
  intro m ρ m' ρ' _ hagree
  refine ⟨fun c => fun _ => Cert.KernelIdeal.Accum.result m c,
    Cert.KernelIdeal.FinalArray.run_of m ρ (Cert.KernelIdeal.Accum.result m) (fun c h j => Cert.KernelIdeal.Accum.out_entry m c h j), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.RefSide.result_eq, (hagree c).1, (hagree c).2.1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
